-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2000x128 : Shape := ⟨3, ![32, 2000, 128]⟩
abbrev S_ : Shape := ⟨0, ![]⟩

class Facts : Prop where
  bcast_S_S32x2000x128 : S_.BroadcastsInDim S32x2000x128 (![] : Fin 0 → Fin S32x2000x128.rank)
  reducesTo_S32x2000x128_S_d0_1_2 : S32x2000x128.ReducesTo [0, 1, 2] S_
  h_S_ : 0 < S_.numel

variable [Facts]

def fn {F : FTy → Type} [FloatOps F] (main_arg0 : FVec F S32x2000x128 .f32) : IVec S_ 1 :=
  let main_v0 : FVec F S32x2000x128 .f32 := Host.absf main_arg0
  let main_cst : FVec F S_ .f32 := constant S_ .f32 0x7F800000#32
  let main_v1 : FVec F S32x2000x128 .f32 := broadcastInDim S32x2000x128 ![] bcast_S_S32x2000x128 main_cst
  let main_v2 : IVec S32x2000x128 1 := cmpf .olt main_v0 main_v1
  let main_c : IVec S_ 1 := constantI S_ 1 1#1
  let main_v3 : IVec S_ 1 := (fun x v => Host.reduce IntOp.andi x v reducesTo_S32x2000x128_S_d0_1_2 h_S_) main_v2 main_c
  main_v3
-- ==== Kernel.lean ====
abbrev S32x2000x128 : Shape := ⟨3, ![32, 2000, 128]⟩
abbrev S32x2000x7x128 : Shape := ⟨4, ![32, 2000, 7, 128]⟩
abbrev S1x2000x128 : Shape := ⟨3, ![1, 2000, 128]⟩
abbrev S1x2000x7x128 : Shape := ⟨4, ![1, 2000, 7, 128]⟩
abbrev S2008x128 : Shape := ⟨2, ![2008, 128]⟩
abbrev S8x128 : Shape := ⟨2, ![8, 128]⟩
abbrev S2000x128 : Shape := ⟨2, ![2000, 128]⟩
abbrev S1x2000x1x128 : Shape := ⟨4, ![1, 2000, 1, 128]⟩

abbrev nBuf : Space → Nat
  | .hbm => 2
  | .vmem => 5
  | .smem => 0
  | _ => 0

abbrev bufTy : (tb : Table) → Fin (tcTables nBuf tb) → BufTy
  | .hbm, ⟨0, _⟩ => ⟨S32x2000x128, .f32⟩
  | .hbm, ⟨1, _⟩ => ⟨S32x2000x7x128, .f32⟩
  | .local _ .vmem, ⟨0, _⟩ => ⟨S1x2000x128, .f32⟩
  | .local _ .vmem, ⟨1, _⟩ => ⟨S1x2000x128, .f32⟩
  | .local _ .vmem, ⟨2, _⟩ => ⟨S1x2000x7x128, .f32⟩
  | .local _ .vmem, ⟨3, _⟩ => ⟨S1x2000x7x128, .f32⟩
  | .local _ .vmem, ⟨4, _⟩ => ⟨S2008x128, .f32⟩
  | _, _ => ⟨S32x2000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x7x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2008x128_S8x128_0_0 : ∀ a, (![0, 0] : Fin 2 → Nat) a + S8x128.size a ≤ S2008x128.size a
  h_S8x128 : 0 < S8x128.numel
  shapeCasts_S8x128_S8x128 : S8x128.ShapeCasts S8x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S2008x128_S2000x128_8_0 : ∀ a, (![8, 0] : Fin 2 → Nat) a + S2000x128.size a ≤ S2008x128.size a
  h_S2000x128 : 0 < S2000x128.numel
  shapeCasts_S2000x128_S2000x128 : S2000x128.ShapeCasts S2000x128
  inb_S2008x128_S2000x128_2_0 : ∀ a, (![2, 0] : Fin 2 → Nat) a + S2000x128.size a ≤ S2008x128.size a
  inb_S1x2000x7x128_S1x2000x1x128_0_0_0_0 : ∀ a, (![0, 0, 0, 0] : Fin 4 → Nat) a + S1x2000x1x128.size a ≤ S1x2000x7x128.size a
  h_S1x2000x1x128 : 0 < S1x2000x1x128.numel
  shapeCasts_S1x2000x1x128_S2000x128 : S1x2000x1x128.ShapeCasts S2000x128
  shapeCasts_S2000x128_S1x2000x1x128 : S2000x128.ShapeCasts S1x2000x1x128
  inb_S2008x128_S2000x128_3_0 : ∀ a, (![3, 0] : Fin 2 → Nat) a + S2000x128.size a ≤ S2008x128.size a
  inb_S1x2000x7x128_S1x2000x1x128_0_0_1_0 : ∀ a, (![0, 0, 1, 0] : Fin 4 → Nat) a + S1x2000x1x128.size a ≤ S1x2000x7x128.size a
  inb_S2008x128_S2000x128_4_0 : ∀ a, (![4, 0] : Fin 2 → Nat) a + S2000x128.size a ≤ S2008x128.size a
  inb_S1x2000x7x128_S1x2000x1x128_0_0_2_0 : ∀ a, (![0, 0, 2, 0] : Fin 4 → Nat) a + S1x2000x1x128.size a ≤ S1x2000x7x128.size a
  inb_S2008x128_S2000x128_5_0 : ∀ a, (![5, 0] : Fin 2 → Nat) a + S2000x128.size a ≤ S2008x128.size a
  inb_S1x2000x7x128_S1x2000x1x128_0_0_3_0 : ∀ a, (![0, 0, 3, 0] : Fin 4 → Nat) a + S1x2000x1x128.size a ≤ S1x2000x7x128.size a
  inb_S2008x128_S2000x128_6_0 : ∀ a, (![6, 0] : Fin 2 → Nat) a + S2000x128.size a ≤ S2008x128.size a
  inb_S1x2000x7x128_S1x2000x1x128_0_0_4_0 : ∀ a, (![0, 0, 4, 0] : Fin 4 → Nat) a + S1x2000x1x128.size a ≤ S1x2000x7x128.size a
  inb_S2008x128_S2000x128_7_0 : ∀ a, (![7, 0] : Fin 2 → Nat) a + S2000x128.size a ≤ S2008x128.size a
  inb_S1x2000x7x128_S1x2000x1x128_0_0_5_0 : ∀ a, (![0, 0, 5, 0] : Fin 4 → Nat) a + S1x2000x1x128.size a ≤ S1x2000x7x128.size a
  inb_S1x2000x7x128_S1x2000x1x128_0_0_6_0 : ∀ a, (![0, 0, 6, 0] : Fin 4 → Nat) a + S1x2000x1x128.size a ≤ S1x2000x7x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S32x2000x128.size a
  hwx0_0 : ∀ i : grid0.Coords, EltTy.bits .f32 = 32 ∨ (Rect.block (s := S32x2000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x7x128.size a ≤ S32x2000x7x128.size a
  hwx0_1 : ∀ i : grid0.Coords, EltTy.bits .f32 = 32 ∨ (Rect.block (s := S32x2000x7x128) S1x2000x7x128.size (cc0_transform_1 i) (hinb0_1 i)).WholeWords (EltTy.packing .f32)

variable [Facts₀]

abbrev win0_0 : Pipeline.Window sig grid0 :=
  Pipeline.Window.ofSpec (Memref.whole main_arg0) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2000x7x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2000x128 : Shape := ⟨3, ![32, 2000, 128]⟩
abbrev S_ : Shape := ⟨0, ![]⟩
abbrev S32x2006x128 : Shape := ⟨3, ![32, 2006, 128]⟩
abbrev S32x2000x1x128 : Shape := ⟨4, ![32, 2000, 1, 128]⟩
abbrev S32x2000x7x128 : Shape := ⟨4, ![32, 2000, 7, 128]⟩

abbrev nBuf : Space → Nat
  | .hbm => 19
  | .vmem => 0
  | .smem => 0
  | _ => 0

abbrev bufTy : (tb : Table) → Fin (tcTables nBuf tb) → BufTy
  | .hbm, ⟨0, _⟩ => ⟨S32x2000x128, .f32⟩
  | .hbm, ⟨1, _⟩ => ⟨S_, .i32⟩
  | .hbm, ⟨2, _⟩ => ⟨S_, .f32⟩
  | .hbm, ⟨3, _⟩ => ⟨S32x2006x128, .f32⟩
  | .hbm, ⟨4, _⟩ => ⟨S32x2000x128, .f32⟩
  | .hbm, ⟨5, _⟩ => ⟨S32x2000x128, .f32⟩
  | .hbm, ⟨6, _⟩ => ⟨S32x2000x128, .f32⟩
  | .hbm, ⟨7, _⟩ => ⟨S32x2000x128, .f32⟩
  | .hbm, ⟨8, _⟩ => ⟨S32x2000x128, .f32⟩
  | .hbm, ⟨9, _⟩ => ⟨S32x2000x128, .f32⟩
  | .hbm, ⟨10, _⟩ => ⟨S32x2000x128, .f32⟩
  | .hbm, ⟨11, _⟩ => ⟨S32x2000x1x128, .f32⟩
  | .hbm, ⟨12, _⟩ => ⟨S32x2000x1x128, .f32⟩
  | .hbm, ⟨13, _⟩ => ⟨S32x2000x1x128, .f32⟩
  | .hbm, ⟨14, _⟩ => ⟨S32x2000x1x128, .f32⟩
  | .hbm, ⟨15, _⟩ => ⟨S32x2000x1x128, .f32⟩
  | .hbm, ⟨16, _⟩ => ⟨S32x2000x1x128, .f32⟩
  | .hbm, ⟨17, _⟩ => ⟨S32x2000x1x128, .f32⟩
  | .hbm, ⟨18, _⟩ => ⟨S32x2000x7x128, .f32⟩
  | _, _ => ⟨S32x2000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]

class Facts₀ : Prop where
  pads_S32x2000x128_S32x2006x128_000_600_000 : S32x2000x128.Pads (![0, 6, 0] : Fin 3 → Nat) ![0, 0, 0] ![0, 0, 0] S32x2006x128
  h_S_ : 0 < S_.numel
  slices_S32x2006x128_S32x2000x128_0_0_0 : S32x2006x128.Slices ![0, 0, 0] S32x2000x128
  slices_S32x2006x128_S32x2000x128_0_1_0 : S32x2006x128.Slices ![0, 1, 0] S32x2000x128
  slices_S32x2006x128_S32x2000x128_0_2_0 : S32x2006x128.Slices ![0, 2, 0] S32x2000x128
  slices_S32x2006x128_S32x2000x128_0_3_0 : S32x2006x128.Slices ![0, 3, 0] S32x2000x128
  slices_S32x2006x128_S32x2000x128_0_4_0 : S32x2006x128.Slices ![0, 4, 0] S32x2000x128
  slices_S32x2006x128_S32x2000x128_0_5_0 : S32x2006x128.Slices ![0, 5, 0] S32x2000x128
  slices_S32x2006x128_S32x2000x128_0_6_0 : S32x2006x128.Slices ![0, 6, 0] S32x2000x128
  bcast_S32x2000x128_S32x2000x1x128_0_1_3 : S32x2000x128.BroadcastsInDim S32x2000x1x128 (![0, 1, 3] : Fin 3 → Fin S32x2000x1x128.rank)
  concatenates_S32x2000x1x128_S32x2000x1x128_S32x2000x1x128_S32x2000x1x128_S32x2000x1x128_S32x2000x1x128_S32x2000x1x128_S32x2000x7x128_d2 : Shape.Concatenates [S32x2000x1x128, S32x2000x1x128, S32x2000x1x128, S32x2000x1x128, S32x2000x1x128, S32x2000x1x128, S32x2000x1x128] S32x2000x7x128 2

variable [Facts₀]

class Facts : Prop extends Facts₀ where

variable [Facts]
-- ==== Proof.Spec.lean ====
/-
  The specification of this certificate: a causal stack of seven taps.

  For an array `x` of shape [32, 2000, 128] the result has shape [32, 2000, 7, 128] and

      out[b, i, j, c] = x[b, i + j - 6, c]   when 6 ≤ i + j,   and the padding value otherwise:

  tap `j` of row `i` looks `6 - j` rows back, and a row before the first reads as padding. The same formula is
  stated three times, for the three arrays the two programs meet it on: the whole array (`taps`), one
  batch entry's block of it (`blockTaps`), and the block laid after eight rows of padding (`padded`), of which
  tap `j` is the 2000 rows from row `j + 2` on.

  Entries are read at natural-number coordinates (`at3`), so that two index expressions that are equal as numbers
  need no argument about the types of their coordinates; every read made below is in range.
-/
import Idealize.ShloMosaic.Lib.ValueIdx

namespace Cert.TapWindow

open Idealize.ShloMosaic Idealize.ShloMosaic.ValueIdx

variable {α : Type}

/-- A rank-3 array read at three natural numbers: the entry there when each is below its extent, `z` when not. -/
def at3 {n0 n1 n2 : Nat} (z : α) (x : (⟨3, ![n0, n1, n2]⟩ : Shape).Idx → α) (a b c : Nat) : α :=
  if h : a < n0 ∧ b < n1 ∧ c < n2 then x (ix3 ⟨a, h.1⟩ ⟨b, h.2.1⟩ ⟨c, h.2.2⟩) else z

/-- Read at the coordinates of an index, it is the array at that index. -/
theorem at3_eq {n0 n1 n2 : Nat} (z : α) (x : (⟨3, ![n0, n1, n2]⟩ : Shape).Idx → α)
    (k : (⟨3, ![n0, n1, n2]⟩ : Shape).Idx) (a b c : Nat)
    (ha : a = (k 0).val) (hb : b = (k 1).val) (hc : c = (k 2).val) : at3 z x a b c = x k := by
  subst ha hb hc
  unfold at3
  rw [dif_pos ⟨(k 0).isLt, (k 1).isLt, (k 2).isLt⟩]
  exact congrArg x (eq_ix3 k).symm

/-- THE RESULT: entry (b, i, j, c) is `x` at row `i + j - 6` of batch entry `b`, and the padding value `z` where
    that row would be negative. -/
def taps (z : α) (x : (⟨3, ![32, 2000, 128]⟩ : Shape).Idx → α) : (⟨4, ![32, 2000, 7, 128]⟩ : Shape).Idx → α :=
  fun j => if 6 ≤ (j 1).val + (j 2).val then at3 z x (j 0).val ((j 1).val + (j 2).val - 6) (j 3).val else z

/-- The same for ONE batch entry: its [1, 2000, 7, 128] block of the result from its [1, 2000, 128] block of `x`. -/
def blockTaps (z : α) (x : (⟨3, ![1, 2000, 128]⟩ : Shape).Idx → α) : (⟨4, ![1, 2000, 7, 128]⟩ : Shape).Idx → α :=
  fun y => if 6 ≤ (y 1).val + (y 2).val then at3 z x 0 ((y 1).val + (y 2).val - 6) (y 3).val else z

/-- One batch entry's rows after eight rows of padding: row `q` is padding for `q < 8` and row `q - 8` of the
    block from there on. -/
def padded (z : α) (x : (⟨3, ![1, 2000, 128]⟩ : Shape).Idx → α) : (⟨2, ![2008, 128]⟩ : Shape).Idx → α :=
  fun q => if 8 ≤ (q 0).val then at3 z x 0 ((q 0).val - 8) (q 1).val else z

/-- The block form is the array form read inside batch entry `b`: if the block `xb` is that entry's rows of `x`, the tap
    stack of `xb` at `y` is the tap stack of `x` at the index `Y` with batch coordinate `b` and `y`'s other three. -/
theorem blockTaps_eq (z : α) (x : (⟨3, ![32, 2000, 128]⟩ : Shape).Idx → α) (xb : (⟨3, ![1, 2000, 128]⟩ : Shape).Idx → α)
    (b : Nat) (hb : b < 32)
    (hxb : ∀ (r l : Nat) (hr : r < 2000) (hl : l < 128),
      xb (ix3 (0 : Fin 1) (⟨r, hr⟩ : Fin 2000) (⟨l, hl⟩ : Fin 128))
        = x (ix3 (⟨b, hb⟩ : Fin 32) (⟨r, hr⟩ : Fin 2000) (⟨l, hl⟩ : Fin 128)))
    (y : (⟨4, ![1, 2000, 7, 128]⟩ : Shape).Idx) (Y : (⟨4, ![32, 2000, 7, 128]⟩ : Shape).Idx)
    (h0 : (Y 0).val = b) (h1 : (Y 1).val = (y 1).val) (h2 : (Y 2).val = (y 2).val) (h3 : (Y 3).val = (y 3).val) :
    blockTaps z xb y = taps z x Y := by
  have hy1 : (y 1).val < 2000 := (y 1).isLt
  have hy2 : (y 2).val < 7 := (y 2).isLt
  have hy3 : (y 3).val < 128 := (y 3).isLt
  unfold blockTaps taps
  rw [h0, h1, h2, h3]
  by_cases h : 6 ≤ (y 1).val + (y 2).val
  · rw [if_pos h, if_pos h]
    unfold at3
    rw [dif_pos ⟨Nat.one_pos, by omega, hy3⟩, dif_pos ⟨hb, by omega, hy3⟩]
    exact hxb _ _ _ _
  · rw [if_neg h, if_neg h]

end Cert.TapWindow
-- ==== Proof.Block.lean ====
/-
  What the kernel body leaves in one batch entry's output block.

  The body keeps a [2008, 128] buffer: it writes eight rows of zeros at the top and the entry's 2000 rows of `x` from
  row 8 on, so the buffer is the block after eight rows of padding (`padded`). It then copies, for each tap
  `j = 0 … 6`, the 2000 rows of the buffer from row `j + 2` on into column `j` of the output block. Row `i` of that
  copy is buffer row `i + j + 2`: padding while `i + j + 2 < 8`, that is `i + j < 6`, and row `i + j - 6` of `x`
  from there on — the causal tap stack of the block (`blockTaps`).

  The seven stores tile the output block and each is a rectangle of that one function, so the block they leave is
  that function; the same argument, with two stores, reads the buffer.
-/
import proofs.«171120_j59631325938010_2_alg».proof.Proof.Gen.KernelIdeal.Frame
import proofs.«171120_j59631325938010_2_alg».proof.Proof.Spec
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic Idealize.ShloMosaic.ValueIdx Cert.TapWindow

variable {F : FTy → Type} [FloatOps F]

/-- The padding value the body writes: the float whose word is zero. -/
abbrev zeroWord : F .f32 := Scalar.ofBits .f32 0x00000000#32

/-! ## The buffer's two stores -/

/-- The rows of `x`, stored from row 8 on: the entry's block with its leading unit axis dropped. -/
theorem rows_apply (x0 : Vec F S1x2000x128 .f32) (r : S2000x128.Idx) :
    k0_pay6 x0 r = at3 (zeroWord (F := F)) x0 0 (r 0).val (r 1).val := by
  unfold k0_pay6
  rw [shapeCast_self]
  have h0 : (r 0).val < 2000 := (r 0).isLt
  have h1 : (r 1).val < 128 := (r 1).isLt
  rw [shapeCast_apply x0 shapeCasts_S1x2000x128_S2000x128 r (ix3 (0 : Fin 1) ⟨(r 0).val, h0⟩ ⟨(r 1).val, h1⟩) (by
    rw [Shape.rowMajor_val_three, Shape.rowMajor_val_two]
    show (0 * 2000 + (r 0).val) * 128 + (r 1).val = (r 0).val * 128 + (r 1).val
    omega)]
  exact (at3_eq _ x0 _ 0 (r 0).val (r 1).val rfl rfl rfl).symm

/-- The eight rows of zeros. -/
theorem zeros_apply (r : S8x128.Idx) : k0_pay5 (F := F) r = zeroWord := by
  unfold k0_pay5
  rw [shapeCast_self]
  rfl

/-! ## The buffer read back -/

/-- The body's load of its whole input block reads the block. -/
theorem load_block (arg1 : Memref sig .tc .vmem S1x2000x128 .f32) (harg1 : arg1.IsWhole) (x0 : Vec F S1x2000x128 .f32) :
    View.readAt (Elt F) arg1.view
      (Rect.unit (s := S1x2000x128) ![0, 0, 0] S1x2000x128.size inb_S1x2000x128_S1x2000x128_0_0_0).toLoadRect (harg1.unread x0) = x0 := by
  rw [View.readAt_eq_ld, harg1.read_unread]
  exact View.ld_unit_zero (funext fun a => by fin_cases a <;> rfl) _ x0

/-- The two stores into the buffer, last first: the rows of `x` from row 8 on, over the eight rows of zeros. -/
abbrev bufferStores (arg1 : Memref sig .tc .vmem S1x2000x128 .f32) (harg1 : arg1.IsWhole) (x0 : Vec F S1x2000x128 .f32) :
    List (View.Piece (Elt F) S2008x128 .f32) :=
  [⟨Rect.unit (s := S2008x128) ![8, 0] S2000x128.size inb_S2008x128_S2000x128_8_0,
      k0_pay6 (View.readAt (Elt F) arg1.view
        (Rect.unit (s := S1x2000x128) ![0, 0, 0] S1x2000x128.size inb_S1x2000x128_S1x2000x128_0_0_0).toLoadRect (harg1.unread x0))⟩,
    ⟨Rect.unit (s := S2008x128) ![0, 0] S8x128.size inb_S2008x128_S8x128_0_0, k0_pay5⟩]

/-- The store of the rows is the rectangle of `padded` from row 8 on: row `r` of it is buffer row `8 + r`. -/
theorem rows_store (arg1 : Memref sig .tc .vmem S1x2000x128 .f32) (harg1 : arg1.IsWhole) (x0 : Vec F S1x2000x128 .f32)
    (r : S2000x128.Idx) :
    k0_pay6 (View.readAt (Elt F) arg1.view
        (Rect.unit (s := S1x2000x128) ![0, 0, 0] S1x2000x128.size inb_S1x2000x128_S1x2000x128_0_0_0).toLoadRect (harg1.unread x0)) r
      = padded (zeroWord (F := F)) x0 ((Rect.unit (s := S2008x128) ![8, 0] S2000x128.size inb_S2008x128_S2000x128_8_0).emb r) := by
  rw [load_block, rows_apply]
  unfold padded
  have e0 : (((Rect.unit (s := S2008x128) ![8, 0] S2000x128.size inb_S2008x128_S2000x128_8_0).emb r) 0).val = 8 + 1 * (r 0).val := rfl
  have e1 : (((Rect.unit (s := S2008x128) ![8, 0] S2000x128.size inb_S2008x128_S2000x128_8_0).emb r) 1).val = 0 + 1 * (r 1).val := rfl
  rw [e0, e1, if_pos (by omega)]
  congr 1 <;> omega

/-- The store of the zeros is the rectangle of `padded` of its first eight rows. -/
theorem zeros_store (x0 : Vec F S1x2000x128 .f32) (r : S8x128.Idx) :
    k0_pay5 (F := F) r
      = padded (zeroWord (F := F)) x0 ((Rect.unit (s := S2008x128) ![0, 0] S8x128.size inb_S2008x128_S8x128_0_0).emb r) := by
  rw [zeros_apply]
  unfold padded
  have e0 : (((Rect.unit (s := S2008x128) ![0, 0] S8x128.size inb_S2008x128_S8x128_0_0).emb r) 0).val = 0 + 1 * (r 0).val := rfl
  have hr0 : (r 0).val < 8 := (r 0).isLt
  rw [e0, if_neg (by omega)]

/-- After them the buffer is the block after eight rows of padding: each store is a rectangle of that one function
    (rows 8 … 2007 of it are the rows of `x`, rows 0 … 7 zeros), and every row is in one of the two. -/
theorem buffer_eq (arg1 : Memref sig .tc .vmem S1x2000x128 .f32) (harg1 : arg1.IsWhole) (x0 : Vec F S1x2000x128 .f32)
    (q : S2008x128.Idx) :
    View.canon (bufferStores arg1 harg1 x0) q = padded (zeroWord (F := F)) x0 q := by
  have hq0 : (q 0).val < 2008 := (q 0).isLt
  have hq1 : (q 1).val < 128 := (q 1).isLt
  refine View.canon_apply_of_pieces (padded (zeroWord (F := F)) x0) _ ?_ q ?_
  · intro p hp
    simp only [bufferStores, List.mem_cons, List.not_mem_nil, or_false] at hp
    rcases hp with rfl | rfl
    · exact fun r => rows_store arg1 harg1 x0 r
    · exact fun r => zeros_store x0 r
  · by_cases h : 8 ≤ (q 0).val
    · refine ⟨_, List.mem_cons_self, ?_⟩
      show q ∈ (Rect.unit (s := S2008x128) ![8, 0] S2000x128.size inb_S2008x128_S2000x128_8_0).set
      rw [Rect.mem_set_unit]
      intro a
      match a with
      | ⟨0, _⟩ => show 8 ≤ (q 0).val ∧ (q 0).val < 8 + 2000; omega
      | ⟨1, _⟩ => show 0 ≤ (q 1).val ∧ (q 1).val < 0 + 128; omega
    · refine ⟨_, List.mem_cons_of_mem _ List.mem_cons_self, ?_⟩
      show q ∈ (Rect.unit (s := S2008x128) ![0, 0] S8x128.size inb_S2008x128_S8x128_0_0).set
      rw [Rect.mem_set_unit]
      intro a
      match a with
      | ⟨0, _⟩ => show 0 ≤ (q 0).val ∧ (q 0).val < 0 + 8; omega
      | ⟨1, _⟩ => show 0 ≤ (q 1).val ∧ (q 1).val < 0 + 128; omega

/-- A load of 2000 rows of the buffer from row `o` on: its row `r` is buffer row `o + r`. -/
theorem buffer_load (arg1 : Memref sig .tc .vmem S1x2000x128 .f32) (harg1 : arg1.IsWhole)
    (arg3 : Memref sig .tc .vmem S2008x128 .f32) (x0 : Vec F S1x2000x128 .f32) (o : Nat)
    (inb : ∀ a, (![o, 0] : Fin 2 → Nat) a + S2000x128.size a ≤ S2008x128.size a) (r : S2000x128.Idx) :
    arg3.view.readCov (bufferStores arg1 harg1 x0) (Rect.unit (s := S2008x128) ![o, 0] S2000x128.size inb).toLoadRect r
      = if 8 ≤ o + (r 0).val then at3 (zeroWord (F := F)) x0 0 (o + (r 0).val - 8) (r 1).val else zeroWord := by
  rw [View.readCov_eq_canon']
  show View.canon (bufferStores arg1 harg1 x0) ((Rect.unit (s := S2008x128) ![o, 0] S2000x128.size inb).toLoadRect.idx r) = _
  rw [buffer_eq]
  unfold padded
  have e0 : (((Rect.unit (s := S2008x128) ![o, 0] S2000x128.size inb).toLoadRect.idx r) 0).val = o + 1 * (r 0).val := rfl
  have e1 : (((Rect.unit (s := S2008x128) ![o, 0] S2000x128.size inb).toLoadRect.idx r) 1).val = 0 + 1 * (r 1).val := rfl
  rw [e0, e1, Nat.one_mul, Nat.one_mul, Nat.zero_add]

/-! ## One tap's store -/

/-- The store of tap `k`: 2000 rows `w` of the buffer from row `k + 2` on, laid as a [1, 2000, 1, 128] rectangle at
    column `k` of the output block, are the tap stack there — buffer row `i + k + 2` is padding while `i + k < 6`
    and row `i + k - 6` of `x` from there on. -/
theorem tap_store (x0 : Vec F S1x2000x128 .f32) (k o : Nat) (ho : o = k + 2) (w : Vec F S2000x128 .f32)
    (hw : ∀ r : S2000x128.Idx,
      w r = if 8 ≤ o + (r 0).val then at3 (zeroWord (F := F)) x0 0 (o + (r 0).val - 8) (r 1).val else zeroWord)
    (y : S1x2000x1x128.Idx) (Y : S1x2000x7x128.Idx)
    (h1 : (Y 1).val = 0 + 1 * (y 1).val) (h2 : (Y 2).val = k + 1 * (y 2).val) (h3 : (Y 3).val = 0 + 1 * (y 3).val) :
    shapeCast S1x2000x1x128 w shapeCasts_S2000x128_S1x2000x1x128 y = blockTaps (zeroWord (F := F)) x0 Y := by
  subst ho
  have hy0 : (y 0).val < 1 := (y 0).isLt
  have hy1 : (y 1).val < 2000 := (y 1).isLt
  have hy2 : (y 2).val < 1 := (y 2).isLt
  have hy3 : (y 3).val < 128 := (y 3).isLt
  rw [shapeCast_apply w shapeCasts_S2000x128_S1x2000x1x128 y (ix2 (⟨(y 1).val, hy1⟩ : Fin 2000) (⟨(y 3).val, hy3⟩ : Fin 128)) (by
    rw [Shape.rowMajor_val_two, Shape.rowMajor_val_four]
    show (y 1).val * 128 + (y 3).val = (((y 0).val * 2000 + (y 1).val) * 1 + (y 2).val) * 128 + (y 3).val
    omega)]
  rw [hw]
  show (if 8 ≤ k + 2 + (y 1).val then at3 zeroWord x0 0 (k + 2 + (y 1).val - 8) (y 3).val else zeroWord) = _
  unfold blockTaps
  rw [h1, h2, h3]
  by_cases h : 6 ≤ (y 1).val + k
  · rw [if_pos (by omega), if_pos (by omega)]
    congr 1 <;> omega
  · rw [if_neg (by omega), if_neg (by omega)]

/-! ## The output block -/

/-- WHAT THE BODY LEAVES in the output block: the causal tap stack of the entry's block of `x`, padded with the zero
    word. The seven stores (taps 6 down to 0, last first) cover the block, and each is the rectangle of that one
    function at its tap. -/
theorem block_eq (c : Dev nD) (i : grid0.Coords) (arg1 : Memref sig .tc .vmem S1x2000x128 .f32) (harg1 : arg1.IsWhole)
    (arg2 : Memref sig .tc .vmem S1x2000x7x128 .f32) (harg2 : arg2.IsWhole)
    (arg3 : Memref sig .tc .vmem S2008x128 .f32) (harg3 : arg3.IsWhole) (x0 : Vec F S1x2000x128 .f32) :
    out0_A_1 c i arg1 harg1 arg2 harg2 arg3 harg3 x0 = blockTaps (zeroWord (F := F)) x0 := by
  unfold out0_A_1
  rw [View.read_writes_junk_eq_canon]
  funext y
  refine View.canon_apply_of_pieces (blockTaps (zeroWord (F := F)) x0) _ ?_ y
    (cover0_A_1 c i arg1 harg1 arg2 harg2 arg3 harg3 x0 y)
  unfold kernelRun0_A
  dsimp only
  sl_unfold_words
  intro p hp
  simp only [List.mem_cons, List.not_mem_nil, or_false] at hp
  rcases hp with rfl | rfl | rfl | rfl | rfl | rfl | rfl
  · exact fun y => tap_store x0 6 8 rfl _ (fun r => buffer_load arg1 harg1 arg3 x0 8 _ r) y _ rfl rfl rfl
  · exact fun y => tap_store x0 5 7 rfl _ (fun r => buffer_load arg1 harg1 arg3 x0 7 _ r) y _ rfl rfl rfl
  · exact fun y => tap_store x0 4 6 rfl _ (fun r => buffer_load arg1 harg1 arg3 x0 6 _ r) y _ rfl rfl rfl
  · exact fun y => tap_store x0 3 5 rfl _ (fun r => buffer_load arg1 harg1 arg3 x0 5 _ r) y _ rfl rfl rfl
  · exact fun y => tap_store x0 2 4 rfl _ (fun r => buffer_load arg1 harg1 arg3 x0 4 _ r) y _ rfl rfl rfl
  · exact fun y => tap_store x0 1 3 rfl _ (fun r => buffer_load arg1 harg1 arg3 x0 3 _ r) y _ rfl rfl rfl
  · exact fun y => tap_store x0 0 2 rfl _ (fun r => buffer_load arg1 harg1 arg3 x0 2 _ r) y _ rfl rfl rfl

end Cert.KernelIdeal.Body

end
-- ==== Proof.KernelTaps.lean ====
/-
  From the blocks to the array.

  The call runs over the 32 batch entries; at entry `t` it reads block (t, 0, 0) of `x` and writes back block
  (t, 0, 0, 0) of the result, and the body leaves there the tap stack of the block it read (`block_eq`). A block of
  the tap stack of `x` is the tap stack of the matching block of `x`, because a tap only moves along the row axis,
  which no block cuts. The 32 blocks tile the result, so after the call the whole result is the tap stack of `x`.
-/
import proofs.«171120_j59631325938010_2_alg».proof.Proof.Gen.KernelIdeal.Value
import proofs.«171120_j59631325938010_2_alg».proof.Proof.Block
import proofs.«171120_j59631325938010_2_alg».proof.Proof.Spec
import Idealize.ShloMosaic.Lib.Pipeline.Value

set_option maxRecDepth 16384

noncomputable section

namespace Cert.KernelIdeal.Taps

open Cert.KernelIdeal Cert.KernelIdeal.Gen Cert.KernelIdeal.Body
open Idealize.ShloMosaic Idealize.ShloMosaic.TcCoe Idealize.SL.Sem Idealize.ShloMosaic.ValueIdx Cert.TapWindow
open Idealize.ShloMosaic.Pipeline (Dat)

variable {F : FTy → Type} [FloatOps F]
variable (m : (ℓ : Loc nD τ sig) → Buf (Elt F) ℓ) (ρ : Dev nD → PrngReg)

/-- The two index maps, decided over the 32 points: the input's block and the output's block have the same batch
    index, below 32, and index zero on every other axis. -/
theorem index_facts : ∀ t : Fin cfg0.N, win0_0.index t (0 : Fin 3) = win0_1.index t (0 : Fin 4)
    ∧ win0_0.index t (1 : Fin 3) = 0 ∧ win0_0.index t (2 : Fin 3) = 0
    ∧ win0_1.index t (1 : Fin 4) = 0 ∧ win0_1.index t (2 : Fin 4) = 0 ∧ win0_1.index t (3 : Fin 4) = 0
    ∧ win0_1.index t (0 : Fin 4) ≤ 31 :=
  (by decide +kernel : ∀ t : Fin grid0.N, _)

/-- Every batch entry is some point's. -/
theorem index_onto : ∀ q : Fin 32, ∃ t : Fin cfg0.N, win0_1.index t (0 : Fin 4) = q.val :=
  (by decide +kernel : ∀ q : Fin 32, ∃ t : Fin grid0.N, win0_1.index t (0 : Fin 4) = q.val)

/-- The input block at point `t` is batch entry `b`'s rows of `x`, `b` the point's batch index. -/
theorem input_block (c : Dev nD) (t : Fin cfg0.N) (b : Nat) (hb : b < 32) (hbt : win0_0.index t (0 : Fin 3) = b)
    (r l : Nat) (hr : r < 2000) (hl : l < 128) :
    iblk m c 0 t (ix3 (0 : Fin 1) (⟨r, hr⟩ : Fin 2000) (⟨l, hl⟩ : Fin 128))
      = V m c main_arg0 (ix3 (⟨b, hb⟩ : Fin 32) (⟨r, hr⟩ : Fin 2000) (⟨l, hl⟩ : Fin 128)) := by
  obtain ⟨e0, e1, e2, e3, e4, e5, e6⟩ := index_facts t
  show V m c main_arg0 (((cfg0.win 0).blk t).view.emb (ix3 (0 : Fin 1) (⟨r, hr⟩ : Fin 2000) (⟨l, hl⟩ : Fin 128))) = _
  refine congrArg _ (funext fun a => Fin.ext ?_)
  match a with
  | ⟨0, _⟩ => show win0_0.index t (0 : Fin 3) * 1 + 1 * 0 = b; omega
  | ⟨1, _⟩ => show win0_0.index t (1 : Fin 3) * 2000 + 1 * r = r; omega
  | ⟨2, _⟩ => show win0_0.index t (2 : Fin 3) * 128 + 1 * l = l; omega

/-- WHAT POINT `t` WRITES BACK is block `t` of the tap stack of `x` as the call finds it. -/
theorem flushed_eq (c : Dev nD) (t : Fin cfg0.N) :
    (dats m 0 c).flushed 1 t
      = ((cfg0.win 1).blk t).view.read (Elt F) (taps (zeroWord (F := F)) (V m c main_arg0)) := by
  obtain ⟨e0, e1, e2, e3, e4, e5, e6⟩ := index_facts t
  rw [Value.flushed1_A,
    block_eq c (grid0.coords t) (ms0_0 t) (hs0_0 t) (ms0_1 t) (hs0_1 t) scM0_0 (Memref.isWhole_whole _) (iblk m c 0 t)]
  funext y
  have hy0 : (y 0).val < 1 := (y 0).isLt
  show blockTaps (zeroWord (F := F)) (iblk m c 0 t) ((cfg0.win 1).xinj (grid0.coords t) y)
    = taps (zeroWord (F := F)) (V m c main_arg0) (((cfg0.win 1).blk t).view.emb y)
  refine blockTaps_eq (zeroWord (F := F)) (V m c main_arg0) (iblk m c 0 t) (win0_1.index t (0 : Fin 4)) (by omega)
    (fun r l hr hl => input_block m c t (win0_1.index t (0 : Fin 4)) (by omega) e0 r l hr hl)
    ((cfg0.win 1).xinj (grid0.coords t) y) (((cfg0.win 1).blk t).view.emb y) ?_ ?_ ?_ ?_
  · show win0_1.index t (0 : Fin 4) * 1 + 1 * (y 0).val = win0_1.index t (0 : Fin 4)
    omega
  · show win0_1.index t (1 : Fin 4) * 2000 + 1 * (y 1).val = (y 1).val
    omega
  · show win0_1.index t (2 : Fin 4) * 7 + 1 * (y 2).val = (y 2).val
    omega
  · show win0_1.index t (3 : Fin 4) * 128 + 1 * (y 3).val = (y 3).val
    omega

/-- An index of the result is in point `t`'s block iff each coordinate is in the block's range on its axis. -/
theorem mem_block (t : Fin cfg0.N) (i : S32x2000x7x128.Idx) :
    i ∈ ((cfg0.win 1).blk t).view.set ↔ ∀ a : Fin 4, win0_1.index t a * S1x2000x7x128.size a ≤ (i a).val
      ∧ (i a).val < win0_1.index t a * S1x2000x7x128.size a + S1x2000x7x128.size a := by
  show i ∈ ((View.whole main_v0).slice (win0_1.rect t)).set ↔ _
  rw [View.set_slice_whole, Rect.mem_set_unit]
  exact Iff.rfl

/-- Every index of the result is in the block of the point of its batch entry. -/
theorem covered (i : S32x2000x7x128.Idx) :
    ∃ t : Fin cfg0.N, (cfg0.win 1).flush t = true ∧ i ∈ ((cfg0.win 1).blk t).view.set := by
  have hi0 : (i 0).val < 32 := (i 0).isLt
  have hi1 : (i 1).val < 2000 := (i 1).isLt
  have hi2 : (i 2).val < 7 := (i 2).isLt
  have hi3 : (i 3).val < 128 := (i 3).isLt
  obtain ⟨t, ht⟩ := index_onto ⟨(i 0).val, hi0⟩
  have q0 : win0_1.index t (0 : Fin 4) = (i 0).val := ht
  obtain ⟨e0, e1, e2, e3, e4, e5, e6⟩ := index_facts t
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 2000 ≤ (i 1).val ∧ (i 1).val < win0_1.index t (1 : Fin 4) * 2000 + 2000; omega
  | ⟨2, _⟩ => show win0_1.index t (2 : Fin 4) * 7 ≤ (i 2).val ∧ (i 2).val < win0_1.index t (2 : Fin 4) * 7 + 7; omega
  | ⟨3, _⟩ => show win0_1.index t (3 : Fin 4) * 128 ≤ (i 3).val ∧ (i 3).val < win0_1.index t (3 : Fin 4) * 128 + 128; omega

/-- THE RESULT ARRAY after the call: the causal tap stack of the argument, padded with the zero word. -/
theorem final (c : Dev nD) :
    (dats m 0 c).arrAt 1 cfg0.N = taps (zeroWord (F := F)) (m ((c : Thread nD τ).loc main_arg0)) :=
  (dats m 0 c).arrAt_eq_of_cover 1 (taps (zeroWord (F := F)) (V m c main_arg0)) (fun t _ => flushed_eq m c t) covered

/-- The kernel's run: every weakly fair execution terminates with the result at the tap stack of the argument, the
    argument unchanged. -/
theorem run : θ_run defs (onTc (τ := τ) (main (F := F))) ⟨m, fun _ => 0, ρ⟩ fun r => ∀ c : Dev nD,
      r.2.mem ((c : Thread nD τ).loc main_v0) = taps (zeroWord (F := F)) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Taps

end
-- ==== Proof.RefTaps.lean ====
/-
  The reference at an index.

  The reference pads the array with six rows of the padding value in front of each batch entry's 2000 rows (the
  value is the integer zero converted to a float), takes the seven windows of 2000 rows that start at rows 0 … 6 of
  the padded array, gives each a unit tap axis, and joins them along it. Row `i` of window `j` is padded row
  `i + j`: padding while `i + j < 6`, and row `i + j - 6` of `x` from there on. Entry (b, i, j, c) of the join is
  window `j` at (b, i, c) — the causal tap stack (`taps`).
-/
import proofs.«171120_j59631325938010_2_alg».proof.Proof.Gen.ReferenceIdeal.Read
import proofs.«171120_j59631325938010_2_alg».proof.Proof.Spec
import Idealize.ShloMosaic.Lib.KernelVsHost
import Idealize.ShloMosaic.Lib.Pipeline.Value

noncomputable section

namespace Cert.ReferenceIdeal.Taps

open Cert.ReferenceIdeal Cert.ReferenceIdeal.Gen Cert.ReferenceIdeal.Read
open Idealize.ShloMosaic Idealize.ShloMosaic.TcCoe Idealize.SL.Sem Idealize.ShloMosaic.ValueIdx Cert.TapWindow

variable {F : FTy → Type} [FloatOps F]

/-- The reference's padding value: the integer zero, converted. -/
abbrev zeroConv : F .f32 := FloatOps.sitofp .f32 (0#32 : BitVec 32)

/-- The padded array at an index: padding in its first six rows, row `r - 6` of `x` at row `r ≥ 6`. -/
theorem padded_apply (x0 : (⟨S32x2000x128, .f32⟩ : BufTy).Contents (Elt F)) (j : S32x2006x128.Idx) :
    val_main_v0 (F := F) x0 j
      = if 6 ≤ (j 1).val then at3 (zeroConv (F := F)) x0 (j 0).val ((j 1).val - 6) (j 2).val else zeroConv := by
  have h0 : (j 0).val < 32 := (j 0).isLt
  have h1 : (j 1).val < 2006 := (j 1).isLt
  have h2 : (j 2).val < 128 := (j 2).isLt
  unfold val_main_v0
  by_cases h : 6 ≤ (j 1).val
  · rw [if_pos h]
    rw [pad_apply_of_inside ![0, 6, 0] ![0, 0, 0] ![0, 0, 0] x0 (val_main_call0_v0 (F := F)) _ _ j
      (ix3 (⟨(j 0).val, h0⟩ : Fin 32) (⟨(j 1).val - 6, by omega⟩ : Fin 2000) (⟨(j 2).val, h2⟩ : Fin 128)) (fun a => by
        fin_cases a
        · show (j 0).val = 0 + (j 0).val * (0 + 1)
          omega
        · show (j 1).val = 6 + ((j 1).val - 6) * (0 + 1)
          omega
        · show (j 2).val = 0 + (j 2).val * (0 + 1)
          omega)]
    exact (at3_eq _ x0 _ _ _ _ rfl rfl rfl).symm
  · rw [if_neg h]
    rw [pad_apply_of_not_inside ![0, 6, 0] ![0, 0, 0] ![0, 0, 0] x0 (val_main_call0_v0 (F := F)) _ _ j 1 (by
        show ¬(6 ≤ (j 1).val ∧ ((j 1).val - 6) % (0 + 1) = 0 ∧ ((j 1).val - 6) / (0 + 1) < 2000)
        omega)]
    rfl

/-- Operand 0 of the join: the padded array's rows from row 0 on, with a unit tap axis. -/
theorem operand0_apply (x0 : (⟨S32x2000x128, .f32⟩ : BufTy).Contents (Elt F)) (i : S32x2000x1x128.Idx) :
    val_main_v8 (F := F) x0 i
      = if 6 ≤ 0 + (i 1).val then at3 (zeroConv (F := F)) x0 (i 0).val (0 + (i 1).val - 6) (i 3).val else zeroConv := by
  rw [val_main_v8_apply, val_main_v1_apply, padded_apply, Nat.zero_add]

/-- Operand 1 of the join: the padded array's rows from row 1 on, with a unit tap axis. -/
theorem operand1_apply (x0 : (⟨S32x2000x128, .f32⟩ : BufTy).Contents (Elt F)) (i : S32x2000x1x128.Idx) :
    val_main_v9 (F := F) x0 i
      = if 6 ≤ 1 + (i 1).val then at3 (zeroConv (F := F)) x0 (i 0).val (1 + (i 1).val - 6) (i 3).val else zeroConv := by
  rw [val_main_v9_apply, val_main_v2_apply, padded_apply]

/-- Operand 2 of the join: the padded array's rows from row 2 on, with a unit tap axis. -/
theorem operand2_apply (x0 : (⟨S32x2000x128, .f32⟩ : BufTy).Contents (Elt F)) (i : S32x2000x1x128.Idx) :
    val_main_v10 (F := F) x0 i
      = if 6 ≤ 2 + (i 1).val then at3 (zeroConv (F := F)) x0 (i 0).val (2 + (i 1).val - 6) (i 3).val else zeroConv := by
  rw [val_main_v10_apply, val_main_v3_apply, padded_apply]

/-- Operand 3 of the join: the padded array's rows from row 3 on, with a unit tap axis. -/
theorem operand3_apply (x0 : (⟨S32x2000x128, .f32⟩ : BufTy).Contents (Elt F)) (i : S32x2000x1x128.Idx) :
    val_main_v11 (F := F) x0 i
      = if 6 ≤ 3 + (i 1).val then at3 (zeroConv (F := F)) x0 (i 0).val (3 + (i 1).val - 6) (i 3).val else zeroConv := by
  rw [val_main_v11_apply, val_main_v4_apply, padded_apply]

/-- Operand 4 of the join: the padded array's rows from row 4 on, with a unit tap axis. -/
theorem operand4_apply (x0 : (⟨S32x2000x128, .f32⟩ : BufTy).Contents (Elt F)) (i : S32x2000x1x128.Idx) :
    val_main_v12 (F := F) x0 i
      = if 6 ≤ 4 + (i 1).val then at3 (zeroConv (F := F)) x0 (i 0).val (4 + (i 1).val - 6) (i 3).val else zeroConv := by
  rw [val_main_v12_apply, val_main_v5_apply, padded_apply]

/-- Operand 5 of the join: the padded array's rows from row 5 on, with a unit tap axis. -/
theorem operand5_apply (x0 : (⟨S32x2000x128, .f32⟩ : BufTy).Contents (Elt F)) (i : S32x2000x1x128.Idx) :
    val_main_v13 (F := F) x0 i
      = if 6 ≤ 5 + (i 1).val then at3 (zeroConv (F := F)) x0 (i 0).val (5 + (i 1).val - 6) (i 3).val else zeroConv := by
  rw [val_main_v13_apply, val_main_v6_apply, padded_apply]

/-- Operand 6 of the join: the padded array's rows from row 6 on, with a unit tap axis. -/
theorem operand6_apply (x0 : (⟨S32x2000x128, .f32⟩ : BufTy).Contents (Elt F)) (i : S32x2000x1x128.Idx) :
    val_main_v14 (F := F) x0 i
      = if 6 ≤ 6 + (i 1).val then at3 (zeroConv (F := F)) x0 (i 0).val (6 + (i 1).val - 6) (i 3).val else zeroConv := by
  rw [val_main_v14_apply, val_main_v7_apply, padded_apply]

/-- The join at an index whose tap coordinate is `k` is operand `k` there, which is the tap stack. -/
theorem join_tap (x0 : (⟨S32x2000x128, .f32⟩ : BufTy).Contents (Elt F)) (j : S32x2000x7x128.Idx) (k : Nat) (hk : k < 7)
    (hj : (j 2).val = k) (v : S32x2000x1x128.Idx → F .f32)
    (hxk : ([⟨S32x2000x1x128, (val_main_v8 (F := F) x0)⟩, ⟨S32x2000x1x128, (val_main_v9 (F := F) x0)⟩,
        ⟨S32x2000x1x128, (val_main_v10 (F := F) x0)⟩, ⟨S32x2000x1x128, (val_main_v11 (F := F) x0)⟩,
        ⟨S32x2000x1x128, (val_main_v12 (F := F) x0)⟩, ⟨S32x2000x1x128, (val_main_v13 (F := F) x0)⟩,
        ⟨S32x2000x1x128, (val_main_v14 (F := F) x0)⟩] : List ((s : Shape) × (s.Idx → F .f32)))[k]'(by simpa using hk)
          = ⟨S32x2000x1x128, v⟩)
    (hpre : (((([⟨S32x2000x1x128, (val_main_v8 (F := F) x0)⟩, ⟨S32x2000x1x128, (val_main_v9 (F := F) x0)⟩,
        ⟨S32x2000x1x128, (val_main_v10 (F := F) x0)⟩, ⟨S32x2000x1x128, (val_main_v11 (F := F) x0)⟩,
        ⟨S32x2000x1x128, (val_main_v12 (F := F) x0)⟩, ⟨S32x2000x1x128, (val_main_v13 (F := F) x0)⟩,
        ⟨S32x2000x1x128, (val_main_v14 (F := F) x0)⟩] : List ((s : Shape) × (s.Idx → F .f32))).take k).map (·.1)).map
          fun s => if h : s.rank = S32x2000x7x128.rank then s.size ((2 : Fin S32x2000x7x128.rank).cast h.symm) else 0).sum = k)
    (hv : ∀ i : S32x2000x1x128.Idx,
      v i = if 6 ≤ k + (i 1).val then at3 (zeroConv (F := F)) x0 (i 0).val (k + (i 1).val - 6) (i 3).val else zeroConv) :
    val_main_v15 (F := F) x0 j = taps (zeroConv (F := F)) x0 j := by
  have h0 : (j 0).val < 32 := (j 0).isLt
  have h1 : (j 1).val < 2000 := (j 1).isLt
  have h3 : (j 3).val < 128 := (j 3).isLt
  unfold val_main_v15
  rw [concatenate_apply_piece (2 : Fin S32x2000x7x128.rank) _ _ j k (by simpa using hk) S32x2000x1x128 v hxk rfl k hpre
    (ix4 (⟨(j 0).val, h0⟩ : Fin 32) (⟨(j 1).val, h1⟩ : Fin 2000) (0 : Fin 1) (⟨(j 3).val, h3⟩ : Fin 128))
    (fun b hb => by
      fin_cases b
      · rfl
      · rfl
      · exact absurd rfl hb
      · rfl)
    (by show k + 0 = (j 2).val; omega)]
  rw [hv]
  unfold taps
  rw [hj]
  show (if 6 ≤ k + (j 1).val then at3 zeroConv x0 (j 0).val (k + (j 1).val - 6) (j 3).val else zeroConv) = _
  by_cases h : 6 ≤ (j 1).val + k
  · rw [if_pos h, if_pos (by omega)]
    congr 1
    omega
  · rw [if_neg h, if_neg (by omega)]

/-- THE REFERENCE'S RESULT is the causal tap stack of its argument, padded with the converted integer zero. -/
theorem result_eq (x0 : (⟨S32x2000x128, .f32⟩ : BufTy).Contents (Elt F)) :
    val_main_v15 (F := F) x0 = taps (zeroConv (F := F)) x0 := by
  funext j
  have h2 : (j 2).val < 7 := (j 2).isLt
  obtain h | h | h | h | h | h | h : (j 2).val = 0 ∨ (j 2).val = 1 ∨ (j 2).val = 2 ∨ (j 2).val = 3 ∨ (j 2).val = 4
      ∨ (j 2).val = 5 ∨ (j 2).val = 6 := by omega
  · exact join_tap x0 j 0 (by omega) h _ rfl rfl (operand0_apply x0)
  · exact join_tap x0 j 1 (by omega) h _ rfl rfl (operand1_apply x0)
  · exact join_tap x0 j 2 (by omega) h _ rfl rfl (operand2_apply x0)
  · exact join_tap x0 j 3 (by omega) h _ rfl rfl (operand3_apply x0)
  · exact join_tap x0 j 4 (by omega) h _ rfl rfl (operand4_apply x0)
  · exact join_tap x0 j 5 (by omega) h _ rfl rfl (operand5_apply x0)
  · exact join_tap x0 j 6 (by omega) h _ rfl rfl (operand6_apply x0)

end Cert.ReferenceIdeal.Taps

end
-- ==== Proof.lean ====
/-
  The certificate of a causal seven-tap window stack.

  Both programs compute, from an array `x` of shape [32, 2000, 128], the array of shape [32, 2000, 7, 128] with

      out[b, i, j, c] = x[b, i + j - 6, c]   when 6 ≤ i + j,   and zero otherwise.

  The kernel does it one batch entry at a time through a buffer of the entry's rows after eight rows of zeros, of which
  tap `j` is the 2000 rows from row `j + 2` on (Proof/Block.lean, Proof/KernelTaps.lean); the reference pads the whole
  array with six rows in front, takes the seven windows that start at rows 0 … 6 and joins them along a new axis
  (Proof/RefTaps.lean). Both are the one function `taps` of Proof/Spec.lean. Nothing is computed with the entries, so
  the equality needs no finiteness: the precondition is not used. The kernel's padding value is the float whose word
  is zero and the reference's the integer zero converted; on the extended reals both are the number zero.

  The three frame claims are the generated frames (the reference's is its generated run with the result dropped), and
  the idealization rewrote nothing, so `preserves` asks nothing.
-/
import proofs.«171120_j59631325938010_2_alg».proof.Defs
import proofs.«171120_j59631325938010_2_alg».proof.Proof.Gen.Kernel
import proofs.«171120_j59631325938010_2_alg».proof.Proof.Gen.Kernel.Skeleton
import proofs.«171120_j59631325938010_2_alg».proof.Proof.Gen.Kernel.Launch
import proofs.«171120_j59631325938010_2_alg».proof.Proof.Gen.Kernel.Points
import proofs.«171120_j59631325938010_2_alg».proof.Proof.Gen.Kernel.Frame
import proofs.«171120_j59631325938010_2_alg».proof.Proof.Gen.KernelIdeal
import proofs.«171120_j59631325938010_2_alg».proof.Proof.Gen.KernelIdeal.Skeleton
import proofs.«171120_j59631325938010_2_alg».proof.Proof.Gen.KernelIdeal.Launch
import proofs.«171120_j59631325938010_2_alg».proof.Proof.Gen.KernelIdeal.Points
import proofs.«171120_j59631325938010_2_alg».proof.Proof.Gen.KernelIdeal.Frame
import proofs.«171120_j59631325938010_2_alg».proof.Proof.Gen.ReferenceIdeal
import proofs.«171120_j59631325938010_2_alg».proof.Proof.Gen.Pre_finite_inputs
import proofs.«171120_j59631325938010_2_alg».proof.Proof.Gen.KernelIdeal.Value
import proofs.«171120_j59631325938010_2_alg».proof.Proof.Gen.ReferenceIdeal.Run
import proofs.«171120_j59631325938010_2_alg».proof.Proof.Gen.ReferenceIdeal.Read
import proofs.«171120_j59631325938010_2_alg».proof.Proof.KernelTaps
import proofs.«171120_j59631325938010_2_alg».proof.Proof.RefTaps
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem Cert.TapWindow

/-- The two padding values are the same extended real: the float whose word is zero is the number zero, and so is the
    integer zero converted. -/
theorem padding_eq :
    Cert.KernelIdeal.Body.zeroWord (F := Ideal) = Cert.ReferenceIdeal.Taps.zeroConv (F := Ideal) := by
  show Ideal.ofBits .f32 0x00000000#32 = ((((0#32 : BitVec 32).toInt : ℤ) : ℝ) : EReal)
  rw [Ideal.ofBits_zero_f32]
  simp

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the tap stack of its argument (Proof/KernelTaps.lean) and
    the reference's at the tap stack of its own (Proof/RefTaps.lean); the arguments agree and the padding values are
    equal, so the results are equal entry by entry. -/
theorem algebraic : Cert.algebraic_KernelIdeal_ReferenceIdeal := by
  intro m ρ m' ρ' _ hagree
  refine ⟨fun c => taps (Cert.KernelIdeal.Body.zeroWord (F := Ideal))
      (m ((c.tc : Thread Cert.KernelIdeal.nD Cert.KernelIdeal.τ).loc Cert.KernelIdeal.main_arg0)),
    Cert.KernelIdeal.Taps.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Taps.result_eq, ← padding_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
